-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x12x2048x128 : Shape := ⟨4, ![2, 12, 2048, 128]⟩
abbrev S2x12x2048x2048 : Shape := ⟨4, ![2, 12, 2048, 2048]⟩
abbrev S_ : Shape := ⟨0, ![]⟩

class Facts : Prop where
  bcast_S_S2x12x2048x128 : S_.BroadcastsInDim S2x12x2048x128 (![] : Fin 0 → Fin S2x12x2048x128.rank)
  reducesTo_S2x12x2048x128_S_d0_1_2_3 : S2x12x2048x128.ReducesTo [0, 1, 2, 3] S_
  h_S_ : 0 < S_.numel
  bcast_S_S2x12x2048x2048 : S_.BroadcastsInDim S2x12x2048x2048 (![] : Fin 0 → Fin S2x12x2048x2048.rank)
  reducesTo_S2x12x2048x2048_S_d0_1_2_3 : S2x12x2048x2048.ReducesTo [0, 1, 2, 3] S_

variable [Facts]

def fn_part1 {F : FTy → Type} [FloatOps F] (main_v13 : IVec S_ 1) (main_v16 : IVec S2x12x2048x2048 1) : IVec S_ 1 :=
  let main_c_5 : IVec S_ 1 := constantI S_ 1 1#1
  let main_v17 : IVec S_ 1 := (fun x v => Host.reduce IntOp.andi x v reducesTo_S2x12x2048x2048_S_d0_1_2_3 h_S_) main_v16 main_c_5
  let main_v18 : IVec S_ 1 := andi main_v13 main_v17
  main_v18

def fn {F : FTy → Type} [FloatOps F] (main_arg0 : FVec F S2x12x2048x128 .f32) (main_arg1 : FVec F S2x12x2048x128 .f32) (main_arg2 : FVec F S2x12x2048x128 .f32) (main_arg3 : FVec F S2x12x2048x2048 .f32) : IVec S_ 1 :=
  let main_v0 : FVec F S2x12x2048x128 .f32 := Host.absf main_arg0
  let main_cst : FVec F S_ .f32 := constant S_ .f32 0x7F800000#32
  let main_v1 : FVec F S2x12x2048x128 .f32 := broadcastInDim S2x12x2048x128 ![] bcast_S_S2x12x2048x128 main_cst
  let main_v2 : IVec S2x12x2048x128 1 := cmpf .olt main_v0 main_v1
  let main_c : IVec S_ 1 := constantI S_ 1 1#1
  let main_v3 : IVec S_ 1 := (fun x v => Host.reduce IntOp.andi x v reducesTo_S2x12x2048x128_S_d0_1_2_3 h_S_) main_v2 main_c
  let main_v4 : FVec F S2x12x2048x128 .f32 := Host.absf main_arg1
  let main_cst_0 : FVec F S_ .f32 := constant S_ .f32 0x7F800000#32
  let main_v5 : FVec F S2x12x2048x128 .f32 := broadcastInDim S2x12x2048x128 ![] bcast_S_S2x12x2048x128 main_cst_0
  let main_v6 : IVec S2x12x2048x128 1 := cmpf .olt main_v4 main_v5
  let main_c_1 : IVec S_ 1 := constantI S_ 1 1#1
  let main_v7 : IVec S_ 1 := (fun x v => Host.reduce IntOp.andi x v reducesTo_S2x12x2048x128_S_d0_1_2_3 h_S_) main_v6 main_c_1
  let main_v8 : IVec S_ 1 := andi main_v3 main_v7
  let main_v9 : FVec F S2x12x2048x128 .f32 := Host.absf main_arg2
  let main_cst_2 : FVec F S_ .f32 := constant S_ .f32 0x7F800000#32
  let main_v10 : FVec F S2x12x2048x128 .f32 := broadcastInDim S2x12x2048x128 ![] bcast_S_S2x12x2048x128 main_cst_2
  let main_v11 : IVec S2x12x2048x128 1 := cmpf .olt main_v9 main_v10
  let main_c_3 : IVec S_ 1 := constantI S_ 1 1#1
  let main_v12 : IVec S_ 1 := (fun x v => Host.reduce IntOp.andi x v reducesTo_S2x12x2048x128_S_d0_1_2_3 h_S_) main_v11 main_c_3
  let main_v13 : IVec S_ 1 := andi main_v8 main_v12
  let main_v14 : FVec F S2x12x2048x2048 .f32 := Host.absf main_arg3
  let main_cst_4 : FVec F S_ .f32 := constant S_ .f32 0x7F800000#32
  let main_v15 : FVec F S2x12x2048x2048 .f32 := broadcastInDim S2x12x2048x2048 ![] bcast_S_S2x12x2048x2048 main_cst_4
  let main_v16 : IVec S2x12x2048x2048 1 := cmpf .olt main_v14 main_v15
  fn_part1 (F := F) main_v13 main_v16
-- ==== Kernel.lean ====
abbrev S2x12x2048x128 : Shape := ⟨4, ![2, 12, 2048, 128]⟩
abbrev S2x12x2048x2048 : Shape := ⟨4, ![2, 12, 2048, 2048]⟩
abbrev S1x1x1024x128 : Shape := ⟨4, ![1, 1, 1024, 128]⟩
abbrev S1x1x1024x1024 : Shape := ⟨4, ![1, 1, 1024, 1024]⟩
abbrev S1024x128 : Shape := ⟨2, ![1024, 128]⟩
abbrev S128x1024 : Shape := ⟨2, ![128, 1024]⟩
abbrev S1024x1024 : Shape := ⟨2, ![1024, 1024]⟩

abbrev nBuf : Space → Nat
  | .hbm => 5
  | .vmem => 11
  | .smem => 0
  | _ => 0

abbrev bufTy : (tb : Table) → Fin (tcTables nBuf tb) → BufTy
  | .hbm, ⟨0, _⟩ => ⟨S2x12x2048x128, .f32⟩
  | .hbm, ⟨1, _⟩ => ⟨S2x12x2048x128, .f32⟩
  | .hbm, ⟨2, _⟩ => ⟨S2x12x2048x128, .f32⟩
  | .hbm, ⟨3, _⟩ => ⟨S2x12x2048x2048, .f32⟩
  | .hbm, ⟨4, _⟩ => ⟨S2x12x2048x128, .f32⟩
  | .local _ .vmem, ⟨0, _⟩ => ⟨S1x1x1024x128, .f32⟩
  | .local _ .vmem, ⟨1, _⟩ => ⟨S1x1x1024x128, .f32⟩
  | .local _ .vmem, ⟨2, _⟩ => ⟨S1x1x1024x128, .f32⟩
  | .local _ .vmem, ⟨3, _⟩ => ⟨S1x1x1024x128, .f32⟩
  | .local _ .vmem, ⟨4, _⟩ => ⟨S1x1x1024x128, .f32⟩
  | .local _ .vmem, ⟨5, _⟩ => ⟨S1x1x1024x128, .f32⟩
  | .local _ .vmem, ⟨6, _⟩ => ⟨S1x1x1024x1024, .f32⟩
  | .local _ .vmem, ⟨7, _⟩ => ⟨S1x1x1024x1024, .f32⟩
  | .local _ .vmem, ⟨8, _⟩ => ⟨S1x1x1024x128, .f32⟩
  | .local _ .vmem, ⟨9, _⟩ => ⟨S1x1x1024x128, .f32⟩
  | .local _ .vmem, ⟨10, _⟩ => ⟨S1024x128, .f32⟩
  | _, _ => ⟨S2x12x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![24, 2, 2], ![false, false, false]⟩

def k0_cond2 (i : grid0.Coords) : BitVec 1 :=
  let arg2 : BitVec 32 := BitVec.ofNat 32 (i 2).val
  let c1_i32 : BitVec 32 := 1#32
  let v27 : BitVec 1 := Scalar.cmpi .eq arg2 c1_i32
  let v28 : BitVec 32 := Scalar.extui v27
  let c0_i32_22 : BitVec 32 := 0#32
  let v29 : BitVec 1 := Scalar.cmpi .ne v28 c0_i32_22
  v29

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.divsi arg0 c12_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c12_i32 c0_i32_1
  let v7 : BitVec 32 := Scalar.extui v6
  let c0_i32_2 : BitVec 32 := 0#32
  let v8 : BitVec 1 := Scalar.cmpi .slt c12_i32 c0_i32_2
  let v9 : BitVec 32 := Scalar.extui v8
  let v10 : BitVec 32 := Scalar.subi v7 v9
  let v11 : BitVec 1 := Scalar.cmpi .ne v5 v10
  let v12 : BitVec 32 := Scalar.remsi arg0 c12_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c12_i32_4 : BitVec 32 := 12#32
  let c0_i32_5 : BitVec 32 := 0#32
  let v17 : BitVec 1 := Scalar.cmpi .eq c12_i32_4 c0_i32_5
  let c1_i32_6 : BitVec 32 := 1#32
  let v18 : BitVec 32 := Scalar.select v17 c1_i32_6 c12_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, arg1.toNat, c0_i32_10.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.divsi arg0 c12_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c12_i32 c0_i32_1
  let v7 : BitVec 32 := Scalar.extui v6
  let c0_i32_2 : BitVec 32 := 0#32
  let v8 : BitVec 1 := Scalar.cmpi .slt c12_i32 c0_i32_2
  let v9 : BitVec 32 := Scalar.extui v8
  let v10 : BitVec 32 := Scalar.subi v7 v9
  let v11 : BitVec 1 := Scalar.cmpi .ne v5 v10
  let v12 : BitVec 32 := Scalar.remsi arg0 c12_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c12_i32_4 : BitVec 32 := 12#32
  let c0_i32_5 : BitVec 32 := 0#32
  let v17 : BitVec 1 := Scalar.cmpi .eq c12_i32_4 c0_i32_5
  let c1_i32_6 : BitVec 32 := 1#32
  let v18 : BitVec 32 := Scalar.select v17 c1_i32_6 c12_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, arg2.toNat, c0_i32_10.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.divsi arg0 c12_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c12_i32 c0_i32_1
  let v7 : BitVec 32 := Scalar.extui v6
  let c0_i32_2 : BitVec 32 := 0#32
  let v8 : BitVec 1 := Scalar.cmpi .slt c12_i32 c0_i32_2
  let v9 : BitVec 32 := Scalar.extui v8
  let v10 : BitVec 32 := Scalar.subi v7 v9
  let v11 : BitVec 1 := Scalar.cmpi .ne v5 v10
  let v12 : BitVec 32 := Scalar.remsi arg0 c12_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c12_i32_4 : BitVec 32 := 12#32
  let c0_i32_5 : BitVec 32 := 0#32
  let v17 : BitVec 1 := Scalar.cmpi .eq c12_i32_4 c0_i32_5
  let c1_i32_6 : BitVec 32 := 1#32
  let v18 : BitVec 32 := Scalar.select v17 c1_i32_6 c12_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, arg2.toNat, c0_i32_10.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.divsi arg0 c12_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c12_i32 c0_i32_1
  let v7 : BitVec 32 := Scalar.extui v6
  let c0_i32_2 : BitVec 32 := 0#32
  let v8 : BitVec 1 := Scalar.cmpi .slt c12_i32 c0_i32_2
  let v9 : BitVec 32 := Scalar.extui v8
  let v10 : BitVec 32 := Scalar.subi v7 v9
  let v11 : BitVec 1 := Scalar.cmpi .ne v5 v10
  let v12 : BitVec 32 := Scalar.remsi arg0 c12_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c12_i32_4 : BitVec 32 := 12#32
  let c0_i32_5 : BitVec 32 := 0#32
  let v17 : BitVec 1 := Scalar.cmpi .eq c12_i32_4 c0_i32_5
  let c1_i32_6 : BitVec 32 := 1#32
  let v18 : BitVec 32 := Scalar.select v17 c1_i32_6 c12_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, v26.toNat, arg1.toNat, arg2.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.divsi arg0 c12_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c12_i32 c0_i32_1
  let v7 : BitVec 32 := Scalar.extui v6
  let c0_i32_2 : BitVec 32 := 0#32
  let v8 : BitVec 1 := Scalar.cmpi .slt c12_i32 c0_i32_2
  let v9 : BitVec 32 := Scalar.extui v8
  let v10 : BitVec 32 := Scalar.subi v7 v9
  let v11 : BitVec 1 := Scalar.cmpi .ne v5 v10
  let v12 : BitVec 32 := Scalar.remsi arg0 c12_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c12_i32_4 : BitVec 32 := 12#32
  let c0_i32_5 : BitVec 32 := 0#32
  let v17 : BitVec 1 := Scalar.cmpi .eq c12_i32_4 c0_i32_5
  let c1_i32_6 : BitVec 32 := 1#32
  let v18 : BitVec 32 := Scalar.select v17 c1_i32_6 c12_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, arg1.toNat, c0_i32_10.toNat]

abbrev stage0_0 : Fin 2 → Memref sig .tc .vmem S1x1x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1x1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1x1x1024x128_S1x1x1024x128_0_0_0_0 : ∀ a, (![0, 0, 0, 0] : Fin 4 → Nat) a + S1x1x1024x128.size a ≤ S1x1x1024x128.size a
  h_S1x1x1024x128 : 0 < S1x1x1024x128.numel
  shapeCasts_S1x1x1024x128_S1024x128 : S1x1x1024x128.ShapeCasts S1024x128
  bitsLt_bf16_f32 : FTy.bits .bf16 < FTy.bits .f32
  transposes_S1024x128_p1_0_S128x1024 : S1024x128.Transposes [1, 0] S128x1024
  inb_S1x1x1024x1024_S1x1x1024x1024_0_0_0_0 : ∀ a, (![0, 0, 0, 0] : Fin 4 → Nat) a + S1x1x1024x1024.size a ≤ S1x1x1024x1024.size a
  h_S1x1x1024x1024 : 0 < S1x1x1024x1024.numel
  shapeCasts_S1x1x1024x1024_S1024x1024 : S1x1x1024x1024.ShapeCasts S1024x1024
  shapeCasts_S1024x128_S1x1x1024x128 : S1024x128.ShapeCasts S1x1x1024x128
  dot_S1024x128_S128x1024_S1024x1024_1_0_0_1_n_n_wf : DotDims.WF S1024x128 S128x1024 S1024x1024 [1] [0] [0] [1] [] []
  dot_S1024x1024_S1024x128_S1024x128_1_0_0_1_n_n_wf : DotDims.WF S1024x1024 S1024x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x1024x128.size a ≤ S2x12x2048x128.size a
  hwx0_0 : ∀ i : grid0.Coords, EltTy.bits .f32 = 32 ∨ (Rect.block (s := S2x12x2048x128) S1x1x1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1024x128.size a ≤ S2x12x2048x128.size a
  hwx0_1 : ∀ i : grid0.Coords, EltTy.bits .f32 = 32 ∨ (Rect.block (s := S2x12x2048x128) S1x1x1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024x128.size a ≤ S2x12x2048x128.size a
  hwx0_2 : ∀ i : grid0.Coords, EltTy.bits .f32 = 32 ∨ (Rect.block (s := S2x12x2048x128) S1x1x1024x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1024x1024.size a ≤ S2x12x2048x2048.size a
  hwx0_3 : ∀ i : grid0.Coords, EltTy.bits .f32 = 32 ∨ (Rect.block (s := S2x12x2048x2048) S1x1x1024x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1024x128.size a ≤ S2x12x2048x128.size a
  hwx0_4 : ∀ i : grid0.Coords, EltTy.bits .f32 = 32 ∨ (Rect.block (s := S2x12x2048x128) S1x1x1024x128.size (cc0_transform_4 i) (hinb0_4 i)).WholeWords (EltTy.packing .f32)

variable [Facts₀]

def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf

abbrev win0_0 : Pipeline.Window sig grid0 :=
  Pipeline.Window.ofSpec (Memref.whole main_arg0) S1x1x1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x1024x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x1x1024x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x1x1024x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S2x12x2048x128 : Shape := ⟨4, ![2, 12, 2048, 128]⟩
abbrev S2x12x2048x2048 : Shape := ⟨4, ![2, 12, 2048, 2048]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S2x12x2048x128, .f32⟩
  | .hbm, ⟨1, _⟩ => ⟨S2x12x2048x128, .f32⟩
  | .hbm, ⟨2, _⟩ => ⟨S2x12x2048x128, .f32⟩
  | .hbm, ⟨3, _⟩ => ⟨S2x12x2048x2048, .f32⟩
  | .hbm, ⟨4, _⟩ => ⟨S2x12x2048x2048, .f32⟩
  | .hbm, ⟨5, _⟩ => ⟨S_, .f32⟩
  | .hbm, ⟨6, _⟩ => ⟨S2x12x2048x2048, .f32⟩
  | .hbm, ⟨7, _⟩ => ⟨S2x12x2048x2048, .f32⟩
  | .hbm, ⟨8, _⟩ => ⟨S2x12x2048x2048, .f32⟩
  | .hbm, ⟨9, _⟩ => ⟨S2x12x2048x2048, .f32⟩
  | .hbm, ⟨10, _⟩ => ⟨S2x12x2048x2048, .f32⟩
  | .hbm, ⟨11, _⟩ => ⟨S_, .f32⟩
  | .hbm, ⟨12, _⟩ => ⟨S2x12x2048x2048, .f32⟩
  | .hbm, ⟨13, _⟩ => ⟨S2x12x2048x2048, .f32⟩
  | .hbm, ⟨14, _⟩ => ⟨S_, .f32⟩
  | .hbm, ⟨15, _⟩ => ⟨S2x12x2048x2048, .f32⟩
  | .hbm, ⟨16, _⟩ => ⟨S2x12x2048x2048, .f32⟩
  | .hbm, ⟨17, _⟩ => ⟨S_, .f32⟩
  | .hbm, ⟨18, _⟩ => ⟨S2x12x2048x2048, .f32⟩
  | .hbm, ⟨19, _⟩ => ⟨S2x12x2048x2048, .f32⟩
  | .hbm, ⟨20, _⟩ => ⟨S2x12x2048x128, .f32⟩
  | _, _ => ⟨S2x12x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩

abbrev nD : Nat := 1
abbrev τ : Topo := Topo.v7x

variable {F : FTy → Type} [FloatOps F]

class Facts₀ : Prop where
  bcast_S_S2x12x2048x2048 : S_.BroadcastsInDim S2x12x2048x2048 (![] : Fin 0 → Fin S2x12x2048x2048.rank)
  dot_S2x12x2048x128_S2x12x2048x128_S2x12x2048x2048_3_3_2_2_01_01_wf : DotDims.WF S2x12x2048x128 S2x12x2048x128 S2x12x2048x2048 [3] [3] [2] [2] [0, 1] [0, 1]
  dot_S2x12x2048x2048_S2x12x2048x128_S2x12x2048x128_3_2_2_3_01_01_wf : DotDims.WF S2x12x2048x2048 S2x12x2048x128 S2x12x2048x128 [3] [2] [2] [3] [0, 1] [0, 1]

variable [Facts₀]

def dot_S2x12x2048x128_S2x12x2048x128_S2x12x2048x2048_3_3_2_2_01_01 : DotDims S2x12x2048x128 S2x12x2048x128 S2x12x2048x2048 where
  lhsContracting := [3]
  rhsContracting := [3]
  lhsNonContracting := [2]
  rhsNonContracting := [2]
  lhsBatch := [0, 1]
  rhsBatch := [0, 1]
  wf := dot_S2x12x2048x128_S2x12x2048x128_S2x12x2048x2048_3_3_2_2_01_01_wf
def dot_S2x12x2048x2048_S2x12x2048x128_S2x12x2048x128_3_2_2_3_01_01 : DotDims S2x12x2048x2048 S2x12x2048x128 S2x12x2048x128 where
  lhsContracting := [3]
  rhsContracting := [2]
  lhsNonContracting := [2]
  rhsNonContracting := [3]
  lhsBatch := [0, 1]
  rhsBatch := [0, 1]
  wf := dot_S2x12x2048x2048_S2x12x2048x128_S2x12x2048x128_3_2_2_3_01_01_wf

class Facts : Prop extends Facts₀ where

variable [Facts]
-- ==== Proof.FoundPieces.lean ====
/-
  What the body leaves in the accumulator and in the output block, in each of its two control cases, as values.

  Every load and store of the body goes through a whole buffer, so a store's rectangle is the whole shape at offset
  zero: the last such store into a buffer is what the buffer holds afterwards, and a load reads the buffer's contents.

  * First key block of a query block (the accumulator is reset): the zero block is stored, read back, and the point's
    contribution added: the accumulator ends at  update(blocks, 0).
  * Last key block: the accumulator left by the point before is read and updated:  update(blocks, previous);  that
    value is then read back and stored, recast, into the output block.

  Stated for any float values: nothing here depends on what the arithmetic means.
-/
import proofs.«180535_j7224134992441_1_alg».proof.Proof.Gen.KernelIdeal.Frame
import Idealize.ShloMosaic.Lib.Pipeline.Value
import Idealize.ShloMosaic.Lib.Tactic

noncomputable section

namespace Cert.KernelIdeal.FoundPieces

open Cert.KernelIdeal Cert.KernelIdeal.Gen
open Idealize.ShloMosaic Idealize.ShloMosaic.TcCoe Idealize.SL.Sem

variable {F : FTy → Type} [FloatOps F]

theorem hz2 : (![0, 0] : Fin 2 → Nat) = fun _ => 0 := funext fun a => by fin_cases a <;> rfl
theorem hz4 : (![0, 0, 0, 0] : Fin 4 → Nat) = fun _ => 0 := funext fun a => by fin_cases a <;> rfl

/-- After a point that resets it, the accumulator holds the update of the zero block by the point's blocks. -/
theorem acc_reset (c : Dev nD) (i : grid0.Coords) (arg3 : Memref sig .tc .vmem S1x1x1024x128 .f32) (harg3 : arg3.IsWhole) (arg4 : Memref sig .tc .vmem S1x1x1024x128 .f32) (harg4 : arg4.IsWhole) (arg5 : Memref sig .tc .vmem S1x1x1024x128 .f32) (harg5 : arg5.IsWhole) (arg6 : Memref sig .tc .vmem S1x1x1024x1024 .f32) (harg6 : arg6.IsWhole) (arg7 : Memref sig .tc .vmem S1x1x1024x128 .f32) (harg7 : arg7.IsWhole) (arg8 : Memref sig .tc .vmem S1024x128 .f32) (harg8 : arg8.IsWhole) (hc0 : cond0_0 i) (hc1 : ¬cond0_1 i)
    (x0 x1 x2 : Vec F S1x1x1024x128 .f32) (x3 : Vec F S1x1x1024x1024 .f32) :
    sout0_A_0 c i arg3 harg3 arg4 harg4 arg5 harg5 arg6 harg6 arg7 harg7 arg8 harg8 hc0 hc1 x0 x1 x2 x3 = k0_pay3 x0 x1 x3 x2 (k0_pay2 (F := F)) := by
  unfold sout0_A_0
  rw [View.read_writes_eq_canon _ _ _ (scover0_A_0 c i arg3 harg3 arg4 harg4 arg5 harg5 arg6 harg6 arg7 harg7 arg8 harg8 hc0 hc1 x0 x1 x2 x3)]
  unfold kernelRun0_A
  dsimp only
  sl_unfold_words
  rw [View.canon_cons_unit_zero (S := S1024x128) hz2, View.readCov_unit_zero (S := S1024x128) _ hz2]
  simp only [View.readAt_eq_ld, harg3.read_unread, harg4.read_unread, harg5.read_unread, harg6.read_unread,
    (View.ld_unit_zero (S := S1x1x1024x128) hz4), (View.ld_unit_zero (S := S1x1x1024x1024) hz4), (View.ld_unit_zero (S := S1024x128) hz2)]

/-- After a point that continues it, the accumulator holds the update of what the point before left. -/
theorem acc_continue (c : Dev nD) (i : grid0.Coords) (arg3 : Memref sig .tc .vmem S1x1x1024x128 .f32) (harg3 : arg3.IsWhole) (arg4 : Memref sig .tc .vmem S1x1x1024x128 .f32) (harg4 : arg4.IsWhole) (arg5 : Memref sig .tc .vmem S1x1x1024x128 .f32) (harg5 : arg5.IsWhole) (arg6 : Memref sig .tc .vmem S1x1x1024x1024 .f32) (harg6 : arg6.IsWhole) (arg7 : Memref sig .tc .vmem S1x1x1024x128 .f32) (harg7 : arg7.IsWhole) (arg8 : Memref sig .tc .vmem S1024x128 .f32) (harg8 : arg8.IsWhole) (hc0 : ¬cond0_0 i) (hc1 : cond0_1 i)
    (x0 x1 x2 : Vec F S1x1x1024x128 .f32) (x3 : Vec F S1x1x1024x1024 .f32) (xs0 : Vec F S1024x128 .f32) :
    sout0_B_0 c i arg3 harg3 arg4 harg4 arg5 harg5 arg6 harg6 arg7 harg7 arg8 harg8 hc0 hc1 x0 x1 x2 x3 xs0 = k0_pay3 x0 x1 x3 x2 xs0 := by
  unfold sout0_B_0
  rw [View.read_writes_eq_canon _ _ _ (scover0_B_0 c i arg3 harg3 arg4 harg4 arg5 harg5 arg6 harg6 arg7 harg7 arg8 harg8 hc0 hc1 x0 x1 x2 x3 xs0)]
  unfold kernelRun0_B
  dsimp only
  sl_unfold_words
  rw [View.canon_unit_zero hz2]
  simp only [View.readAt_eq_ld, harg3.read_unread, harg4.read_unread, harg5.read_unread, harg6.read_unread,
    harg8.read_unread, (View.ld_unit_zero (S := S1x1x1024x128) hz4), (View.ld_unit_zero (S := S1x1x1024x1024) hz4), (View.ld_unit_zero (S := S1024x128) hz2)]

/-- … and the output block holds that accumulator, recast to the block's shape. -/
theorem out_last (c : Dev nD) (i : grid0.Coords) (arg3 : Memref sig .tc .vmem S1x1x1024x128 .f32) (harg3 : arg3.IsWhole) (arg4 : Memref sig .tc .vmem S1x1x1024x128 .f32) (harg4 : arg4.IsWhole) (arg5 : Memref sig .tc .vmem S1x1x1024x128 .f32) (harg5 : arg5.IsWhole) (arg6 : Memref sig .tc .vmem S1x1x1024x1024 .f32) (harg6 : arg6.IsWhole) (arg7 : Memref sig .tc .vmem S1x1x1024x128 .f32) (harg7 : arg7.IsWhole) (arg8 : Memref sig .tc .vmem S1024x128 .f32) (harg8 : arg8.IsWhole) (hc0 : ¬cond0_0 i) (hc1 : cond0_1 i)
    (x0 x1 x2 : Vec F S1x1x1024x128 .f32) (x3 : Vec F S1x1x1024x1024 .f32) (xs0 : Vec F S1024x128 .f32) :
    out0_B_4 c i arg3 harg3 arg4 harg4 arg5 harg5 arg6 harg6 arg7 harg7 arg8 harg8 hc0 hc1 x0 x1 x2 x3 xs0 = k0_pay1 (k0_pay3 x0 x1 x3 x2 xs0) := by
  unfold out0_B_4
  rw [View.read_writes_eq_canon _ _ _ (cover0_B_4 c i arg3 harg3 arg4 harg4 arg5 harg5 arg6 harg6 arg7 harg7 arg8 harg8 hc0 hc1 x0 x1 x2 x3 xs0)]
  unfold kernelRun0_B
  dsimp only
  sl_unfold_words
  rw [View.canon_unit_zero hz4, View.readCov_unit_zero (S := S1024x128) _ hz2]
  simp only [View.readAt_eq_ld, harg3.read_unread, harg4.read_unread, harg5.read_unread, harg6.read_unread,
    harg8.read_unread, (View.ld_unit_zero (S := S1x1x1024x128) hz4), (View.ld_unit_zero (S := S1x1x1024x1024) hz4), (View.ld_unit_zero (S := S1024x128) hz2)]

end Cert.KernelIdeal.FoundPieces

end
-- ==== Proof.AttnSpec.lean ====
/-
  The function both programs compute, over the extended reals.

  With q, k, v of shape [2, 12, 2048, 128] and bias of shape [2, 12, 2048, 2048], and with σ the logistic
  function 1 / (1 + e^(-x)) and α the scale both programs carry as the same 32-bit word, the result at
  (b, h, s, d) is

      Σ_{t < 2048}  σ(α · (Σ_{e < 128} q[b,h,s,e] · k[b,h,t,e]) + bias[b,h,s,t]) · v[b,h,t,d].

  The sum over the 2048 key rows splits into the two halves t < 1024 and 1024 ≤ t: the extended reals are a
  commutative additive monoid, so regrouping a finite sum needs no finiteness of its terms.
-/
import Idealize.ShloMosaic.PureOps.Ideal
import Idealize.ShloMosaic.PureOps.Ideal.Laws
import Idealize.ShloMosaic.Lib.ValueIdx

noncomputable section

open scoped BigOperators

namespace Cert.AttnSpec

open Idealize.ShloMosaic Idealize.ShloMosaic.ValueIdx

/-- The shape of q, k, v and of the result. -/
abbrev QKV : Shape := ⟨4, ![2, 12, 2048, 128]⟩
/-- The shape of the bias. -/
abbrev BIAS : Shape := ⟨4, ![2, 12, 2048, 2048]⟩

/-- The scale α as an extended real: the value of the word both programs carry. -/
abbrev scale : EReal := Ideal.ofBits .f32 0x3DB504F3#32

/-- The weight σ(α · ⟨q[b,h,s,·], k[b,h,t,·]⟩ + bias[b,h,s,t]) that query row s gives key row t in head (b, h). -/
def weight (q k : QKV.Idx → EReal) (bias : BIAS.Idx → EReal) (b : Fin 2) (h : Fin 12) (s t : Fin 2048) : EReal :=
  Ideal.logistic (scale * (∑ e : Fin 128, q (ix4 b h s e) * k (ix4 b h t e)) + bias (ix4 b h s t))

/-- The result: at (b, h, s, d) the weighted sum of v's column d over all 2048 key rows. -/
def attn (q k v : QKV.Idx → EReal) (bias : BIAS.Idx → EReal) : QKV.Idx → EReal := fun i =>
  ∑ t : Fin 2048, weight q k bias (i 0) (i 1) (i 2) t * v (ix4 (i 0) (i 1) t (i 3))

/-- The result at an index given by its coordinates. -/
theorem attn_apply (q k v : QKV.Idx → EReal) (bias : BIAS.Idx → EReal) (b : Fin 2) (h : Fin 12) (s : Fin 2048)
    (d : Fin 128) :
    attn q k v bias (ix4 b h s d) = ∑ t : Fin 2048, weight q k bias b h s t * v (ix4 b h t d) := rfl

/-- Key row `t'` of half `ki` (rows 1024·ki … 1024·ki + 1023). -/
def keyRow (ki : Fin 2) (t' : Fin 1024) : Fin 2048 :=
  ⟨1024 * ki.val + t'.val, by have := ki.isLt; have := t'.isLt; omega⟩

/-- The part of the weighted sum that one half of the key rows contributes. -/
def half (q k v : QKV.Idx → EReal) (bias : BIAS.Idx → EReal) (b : Fin 2) (h : Fin 12) (s : Fin 2048) (d : Fin 128)
    (ki : Fin 2) : EReal :=
  ∑ t' : Fin 1024, weight q k bias b h s (keyRow ki t') * v (ix4 b h (keyRow ki t') d)

/-- A sum over 2048 indices is the sum over the first 1024 plus the sum over the last 1024. -/
theorem sum_two_halves (f : Fin 2048 → EReal) :
    ∑ t : Fin 2048, f t = (∑ t' : Fin 1024, f (keyRow 0 t')) + ∑ t' : Fin 1024, f (keyRow 1 t') := by
  have h := Fin.sum_univ_add (a := 1024) (b := 1024) (fun t : Fin (1024 + 1024) => f t)
  refine h.trans ?_
  congr 1

/-- The result is zero, plus the first half's part, plus the second half's part — the order in which an
    accumulator started at zero collects them. -/
theorem attn_eq_halves (q k v : QKV.Idx → EReal) (bias : BIAS.Idx → EReal) (b : Fin 2) (h : Fin 12) (s : Fin 2048)
    (d : Fin 128) :
    attn q k v bias (ix4 b h s d) = (0 + half q k v bias b h s d 0) + half q k v bias b h s d 1 := by
  rw [attn_apply, zero_add]
  exact sum_two_halves fun t => weight q k bias b h s t * v (ix4 b h t d)

end Cert.AttnSpec

end
-- ==== Proof.GridBlocks.lean ====
/-
  Which part of each array a grid point holds.

  The grid has 24 · 2 · 2 = 96 points; point t = 4·(12·b + h) + 2·qi + ki works on head (b, h), query rows
  1024·qi … 1024·qi + 1023 and key rows 1024·ki … 1024·ki + 1023. Its q block and its output block are rows 1024·qi …
  of head (b, h); its k and v blocks rows 1024·ki …; its bias block those rows by those columns. The printed index
  maps are decided once over the 96 points; a block's entry then sits at block index × block size + its coordinate.
-/
import proofs.«180535_j7224134992441_1_alg».proof.Proof.Gen.KernelIdeal.Frame.Runs
import proofs.«180535_j7224134992441_1_alg».proof.Proof.AttnSpec
import Idealize.ShloMosaic.Lib.Pipeline.Value
import Idealize.ShloMosaic.Lib.ValueIdx

noncomputable section

namespace Cert.KernelIdeal.GridBlocks

open Cert.KernelIdeal Cert.KernelIdeal.Gen Cert.AttnSpec
open Idealize.ShloMosaic Idealize.ShloMosaic.TcCoe Idealize.SL.Sem Idealize.ShloMosaic.ValueIdx

variable {F : FTy → Type} [FloatOps F]
variable (m : (ℓ : Loc nD τ sig) → Buf (Elt F) ℓ)

/-- The five windows' block indices at every point, in closed form (windows 0–3: q, k, v, bias; window 4: the output). -/
theorem idx_facts : ∀ t : Fin cfg0.N,
    (win0_0.index t (0 : Fin 4) = t.val / 48 ∧ win0_0.index t (1 : Fin 4) = t.val / 4 % 12 ∧ win0_0.index t (2 : Fin 4) = t.val / 2 % 2 ∧ win0_0.index t (3 : Fin 4) = 0)
    ∧ (win0_1.index t (0 : Fin 4) = t.val / 48 ∧ win0_1.index t (1 : Fin 4) = t.val / 4 % 12 ∧ win0_1.index t (2 : Fin 4) = t.val % 2 ∧ win0_1.index t (3 : Fin 4) = 0)
    ∧ (win0_2.index t (0 : Fin 4) = t.val / 48 ∧ win0_2.index t (1 : Fin 4) = t.val / 4 % 12 ∧ win0_2.index t (2 : Fin 4) = t.val % 2 ∧ win0_2.index t (3 : Fin 4) = 0)
    ∧ (win0_3.index t (0 : Fin 4) = t.val / 48 ∧ win0_3.index t (1 : Fin 4) = t.val / 4 % 12 ∧ win0_3.index t (2 : Fin 4) = t.val / 2 % 2 ∧ win0_3.index t (3 : Fin 4) = t.val % 2)
    ∧ (win0_4.index t (0 : Fin 4) = t.val / 48 ∧ win0_4.index t (1 : Fin 4) = t.val / 4 % 12 ∧ win0_4.index t (2 : Fin 4) = t.val / 2 % 2 ∧ win0_4.index t (3 : Fin 4) = 0) :=
  (by decide +kernel : ∀ t : Fin grid0.N, _)

theorem lt96 (t : Fin cfg0.N) : t.val < 96 := lt_of_lt_of_eq t.isLt (show cfg0.N = 96 from N_0)

/-- The batch coordinate of point t's head. -/
def pB (t : Fin cfg0.N) : Fin 2 := ⟨t.val / 48, by have := lt96 t; omega⟩
/-- The head coordinate of point t's head. -/
def pH (t : Fin cfg0.N) : Fin 12 := ⟨t.val / 4 % 12, by omega⟩
/-- Point t's half of the query rows. -/
def pQ (t : Fin cfg0.N) : Fin 2 := ⟨t.val / 2 % 2, by omega⟩
/-- Point t's half of the key rows. -/
def pK (t : Fin cfg0.N) : Fin 2 := ⟨t.val % 2, by omega⟩

/-- The q block at point t: rows 1024·qi … of head (b, h). -/
theorem qBlock_apply (c : Dev nD) (t : Fin cfg0.N) (r : Fin 1024) (e : Fin 128) :
    iblk m c 0 t (ix4 (0 : Fin 1) (0 : Fin 1) r e)
      = m ((c : Thread nD τ).loc main_arg0) (ix4 (pB t) (pH t) (keyRow (pQ t) r) e) := by
  obtain ⟨⟨e0, e1, e2, e3⟩, -, -, -, -⟩ := idx_facts t
  unfold iblk
  rw [View.read_apply]
  show V m c main_arg0 _ = _
  refine congrArg (m ((c : Thread nD τ).loc main_arg0)) (funext fun a => Fin.ext ?_)
  match a with
  | ⟨0, _⟩ => show win0_0.index t (0 : Fin 4) * 1 + 1 * 0 = t.val / 48; omega
  | ⟨1, _⟩ => show win0_0.index t (1 : Fin 4) * 1 + 1 * 0 = t.val / 4 % 12; omega
  | ⟨2, _⟩ => show win0_0.index t (2 : Fin 4) * 1024 + 1 * r.val = 1024 * (t.val / 2 % 2) + r.val; omega
  | ⟨3, _⟩ => show win0_0.index t (3 : Fin 4) * 128 + 1 * e.val = e.val; omega

/-- The k block at point t: rows 1024·ki … of head (b, h). -/
theorem kBlock_apply (c : Dev nD) (t : Fin cfg0.N) (t' : Fin 1024) (e : Fin 128) :
    iblk m c 1 t (ix4 (0 : Fin 1) (0 : Fin 1) t' e)
      = m ((c : Thread nD τ).loc main_arg1) (ix4 (pB t) (pH t) (keyRow (pK t) t') e) := by
  obtain ⟨-, ⟨e0, e1, e2, e3⟩, -, -, -⟩ := idx_facts t
  unfold iblk
  rw [View.read_apply]
  show V m c main_arg1 _ = _
  refine congrArg (m ((c : Thread nD τ).loc main_arg1)) (funext fun a => Fin.ext ?_)
  match a with
  | ⟨0, _⟩ => show win0_1.index t (0 : Fin 4) * 1 + 1 * 0 = t.val / 48; omega
  | ⟨1, _⟩ => show win0_1.index t (1 : Fin 4) * 1 + 1 * 0 = t.val / 4 % 12; omega
  | ⟨2, _⟩ => show win0_1.index t (2 : Fin 4) * 1024 + 1 * t'.val = 1024 * (t.val % 2) + t'.val; omega
  | ⟨3, _⟩ => show win0_1.index t (3 : Fin 4) * 128 + 1 * e.val = e.val; omega

/-- The v block at point t: rows 1024·ki … of head (b, h). -/
theorem vBlock_apply (c : Dev nD) (t : Fin cfg0.N) (t' : Fin 1024) (d : Fin 128) :
    iblk m c 2 t (ix4 (0 : Fin 1) (0 : Fin 1) t' d)
      = m ((c : Thread nD τ).loc main_arg2) (ix4 (pB t) (pH t) (keyRow (pK t) t') d) := by
  obtain ⟨-, -, ⟨e0, e1, e2, e3⟩, -, -⟩ := idx_facts t
  unfold iblk
  rw [View.read_apply]
  show V m c main_arg2 _ = _
  refine congrArg (m ((c : Thread nD τ).loc main_arg2)) (funext fun a => Fin.ext ?_)
  match a with
  | ⟨0, _⟩ => show win0_2.index t (0 : Fin 4) * 1 + 1 * 0 = t.val / 48; omega
  | ⟨1, _⟩ => show win0_2.index t (1 : Fin 4) * 1 + 1 * 0 = t.val / 4 % 12; omega
  | ⟨2, _⟩ => show win0_2.index t (2 : Fin 4) * 1024 + 1 * t'.val = 1024 * (t.val % 2) + t'.val; omega
  | ⟨3, _⟩ => show win0_2.index t (3 : Fin 4) * 128 + 1 * d.val = d.val; omega

/-- The bias block at point t: rows 1024·qi … by columns 1024·ki … of head (b, h). -/
theorem biasBlock_apply (c : Dev nD) (t : Fin cfg0.N) (r t' : Fin 1024) :
    iblk m c 3 t (ix4 (0 : Fin 1) (0 : Fin 1) r t')
      = m ((c : Thread nD τ).loc main_arg3) (ix4 (pB t) (pH t) (keyRow (pQ t) r) (keyRow (pK t) t')) := by
  obtain ⟨-, -, -, ⟨e0, e1, e2, e3⟩, -⟩ := idx_facts t
  unfold iblk
  rw [View.read_apply]
  show V m c main_arg3 _ = _
  refine congrArg (m ((c : Thread nD τ).loc main_arg3)) (funext fun a => Fin.ext ?_)
  match a with
  | ⟨0, _⟩ => show win0_3.index t (0 : Fin 4) * 1 + 1 * 0 = t.val / 48; omega
  | ⟨1, _⟩ => show win0_3.index t (1 : Fin 4) * 1 + 1 * 0 = t.val / 4 % 12; omega
  | ⟨2, _⟩ => show win0_3.index t (2 : Fin 4) * 1024 + 1 * r.val = 1024 * (t.val / 2 % 2) + r.val; omega
  | ⟨3, _⟩ => show win0_3.index t (3 : Fin 4) * 1024 + 1 * t'.val = 1024 * (t.val % 2) + t'.val; omega

/-- Where the output block's entry (·, ·, r, d) sits in the result array: row 1024·qi + r, column d of head (b, h). -/
theorem outBlock_emb (t : Fin cfg0.N) (u v : Fin 1) (r : Fin 1024) (d : Fin 128) :
    ((cfg0.win 4).blk t).view.emb (ix4 u v r d) = ix4 (pB t) (pH t) (keyRow (pQ t) r) d := by
  obtain ⟨-, -, -, -, ⟨e0, e1, e2, e3⟩⟩ := idx_facts t
  refine funext fun a => Fin.ext ?_
  have hu : u.val = 0 := by omega
  have hv : v.val = 0 := by omega
  match a with
  | ⟨0, _⟩ => show win0_4.index t (0 : Fin 4) * 1 + 1 * u.val = t.val / 48; omega
  | ⟨1, _⟩ => show win0_4.index t (1 : Fin 4) * 1 + 1 * v.val = t.val / 4 % 12; omega
  | ⟨2, _⟩ => show win0_4.index t (2 : Fin 4) * 1024 + 1 * r.val = 1024 * (t.val / 2 % 2) + r.val; omega
  | ⟨3, _⟩ => show win0_4.index t (3 : Fin 4) * 128 + 1 * d.val = d.val; omega

end Cert.KernelIdeal.GridBlocks

end
-- ==== Proof.LibUnitPair.lean ====
/-
  Two leading unit axes dropped or added by a shape cast, read at an index.

  A pipelined block of a rank-4 array whose two leading axes are squeezed has shape [1, 1, a, b]; a kernel body views
  it as the matrix [a, b] and stores a matrix result back as [1, 1, a, b]. Both casts keep the row-major position, so
  the matrix entry (i, j) is the block entry (0, 0, i, j).
-/
import Idealize.ShloMosaic.Lib.Pipeline.Value
import Idealize.ShloMosaic.Lib.ValueIdx

namespace Cert.LibUnitPair

open Idealize.ShloMosaic Idealize.ShloMosaic.ValueIdx

variable {α : Type}

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp)

/-- An `[a, b]` array cast to `[1, 1, a, b]` reads, at `(u, v, i, j)`, the operand at `(i, j)`. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    simp [hu, hv])

end Cert.LibUnitPair
-- ==== Proof.BlockPayload.lean ====
/-
  What one grid point adds to the accumulator, read at an entry.

  At a grid point the body holds a [1024, 128] block of q, of k and of v and a [1024, 1024] block of the bias (each
  carried with two leading unit axes). It forms the 1024 × 1024 scores q·kᵀ (a contraction over the 128 features),
  scales them by α, adds the bias block, applies the logistic function, contracts the resulting weights with the v
  block over the block's 1024 key rows, and adds that to the accumulator. The two changes of float format on the way
  into each product are the identity on the extended reals. So entry (r, d) of the new accumulator is the old entry plus

      Σ_{t' < 1024}  σ(α · (Σ_{e < 128} q[0,0,r,e] · k[0,0,t',e]) + bias[0,0,r,t']) · v[0,0,t',d].
-/
import proofs.«180535_j7224134992441_1_alg».proof.Proof.Gen.KernelIdeal.Skeleton
import proofs.«180535_j7224134992441_1_alg».proof.Proof.AttnSpec
import proofs.«180535_j7224134992441_1_alg».proof.Proof.LibUnitPair
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.BlockValue

open Cert.KernelIdeal Cert.KernelIdeal.Gen Cert.AttnSpec Cert.LibUnitPair
open Idealize.ShloMosaic Idealize.ShloMosaic.ValueIdx

/-- The scores' contraction: [1024, 128] · [128, 1024] over the shared axis of extent 128. -/
abbrev scoreDot : DotDims S1024x128 S128x1024 S1024x1024 := dot_S1024x128_S128x1024_S1024x1024_1_0_0_1_n_n
/-- The weights' contraction with v: [1024, 1024] · [1024, 128] over the shared axis of extent 1024. -/
abbrev valueDot : DotDims S1024x1024 S1024x128 S1024x128 := dot_S1024x1024_S1024x128_S1024x128_1_0_0_1_n_n

theorem scoreDot_lhs0 (j : S1024x1024.Idx) (q : scoreDot.contr.Idx) : (scoreDot.lhsIdx j q 0).val = (j 0).val := by
  unfold DotDims.lhsIdx
  rw [dif_neg (show ¬(0 : Fin S1024x128.rank) ∈ scoreDot.lhsBatch by decide),
    dif_pos (show (0 : Fin S1024x128.rank) ∈ scoreDot.lhsNonContracting by decide)]
  rfl

theorem scoreDot_rhs1 (j : S1024x1024.Idx) (q : scoreDot.contr.Idx) : (scoreDot.rhsIdx j q 1).val = (j 1).val := by
  unfold DotDims.rhsIdx
  rw [dif_neg (show ¬(1 : Fin S128x1024.rank) ∈ scoreDot.rhsBatch by decide),
    dif_pos (show (1 : Fin S128x1024.rank) ∈ scoreDot.rhsNonContracting by decide)]
  rfl

theorem valueDot_lhs0 (j : S1024x128.Idx) (q : valueDot.contr.Idx) : (valueDot.lhsIdx j q 0).val = (j 0).val := by
  unfold DotDims.lhsIdx
  rw [dif_neg (show ¬(0 : Fin S1024x1024.rank) ∈ valueDot.lhsBatch by decide),
    dif_pos (show (0 : Fin S1024x1024.rank) ∈ valueDot.lhsNonContracting by decide)]
  rfl

theorem valueDot_rhs1 (j : S1024x128.Idx) (q : valueDot.contr.Idx) : (valueDot.rhsIdx j q 1).val = (j 1).val := by
  unfold DotDims.rhsIdx
  rw [dif_neg (show ¬(1 : Fin S1024x128.rank) ∈ valueDot.rhsBatch by decide),
    dif_pos (show (1 : Fin S1024x128.rank) ∈ valueDot.rhsNonContracting by decide)]
  rfl

/-- The scores' product into a zero accumulator, at (r, t'): the sum over the 128 features of lhs (r, e) · rhs (e, t'). -/
theorem scores_apply (lhs : FVec Ideal S1024x128 .bf16) (rhs : FVec Ideal S128x1024 .bf16) (r t' : Fin 1024) :
    FloatOps.matmul scoreDot none lhs rhs (constant S1024x1024 .f32 0x00000000#32) (ix2 r t')
      = ∑ e : Fin 128, lhs (ix2 r e) * rhs (ix2 e t') := by
  rw [Ideal.matmul_constant_zero_apply, ← Equiv.sum_comp (contrEquiv1 scoreDot 128 rfl rfl).symm]
  refine Finset.sum_congr rfl fun e _ => ?_
  have hk := contrEquiv1_symm_val scoreDot 128 rfl rfl e
  have el : scoreDot.lhsIdx (ix2 r t') ((contrEquiv1 scoreDot 128 rfl rfl).symm e) = ix2 r e :=
    funext fun a => Fin.ext (by
      match a with
      | ⟨0, _⟩ => exact scoreDot_lhs0 _ _
      | ⟨1, _⟩ => exact (scoreDot.lhsIdx_val_of_single rfl _ _).trans hk)
  have er : scoreDot.rhsIdx (ix2 r t') ((contrEquiv1 scoreDot 128 rfl rfl).symm e) = ix2 e t' :=
    funext fun a => Fin.ext (by
      match a with
      | ⟨0, _⟩ => exact (scoreDot.rhsIdx_val_of_single rfl _ _).trans hk
      | ⟨1, _⟩ => exact scoreDot_rhs1 _ _)
  rw [el, er]

/-- The weights' product with v into a zero accumulator, at (r, d): the sum over the block's 1024 key rows of
    lhs (r, t') · rhs (t', d). -/
theorem weighted_apply (lhs : FVec Ideal S1024x1024 .bf16) (rhs : FVec Ideal S1024x128 .bf16) (r : Fin 1024) (d : Fin 128) :
    FloatOps.matmul valueDot none lhs rhs (constant S1024x128 .f32 0x00000000#32) (ix2 r d)
      = ∑ t' : Fin 1024, lhs (ix2 r t') * rhs (ix2 t' d) := by
  rw [Ideal.matmul_constant_zero_apply, ← Equiv.sum_comp (contrEquiv1 valueDot 1024 rfl rfl).symm]
  refine Finset.sum_congr rfl fun t' _ => ?_
  have hk := contrEquiv1_symm_val valueDot 1024 rfl rfl t'
  have el : valueDot.lhsIdx (ix2 r d) ((contrEquiv1 valueDot 1024 rfl rfl).symm t') = ix2 r t' :=
    funext fun a => Fin.ext (by
      match a with
      | ⟨0, _⟩ => exact valueDot_lhs0 _ _
      | ⟨1, _⟩ => exact (valueDot.lhsIdx_val_of_single rfl _ _).trans hk)
  have er : valueDot.rhsIdx (ix2 r d) ((contrEquiv1 valueDot 1024 rfl rfl).symm t') = ix2 t' d :=
    funext fun a => Fin.ext (by
      match a with
      | ⟨0, _⟩ => exact (valueDot.rhsIdx_val_of_single rfl _ _).trans hk
      | ⟨1, _⟩ => exact valueDot_rhs1 _ _)
  rw [el, er]

/-- What the blocks at one grid point contribute to entry (r, d). -/
def blockTerm (x0 x1 x2 : S1x1x1024x128.Idx → EReal) (x3 : S1x1x1024x1024.Idx → EReal) (r : Fin 1024) (d : Fin 128) :
    EReal :=
  ∑ t' : Fin 1024,
    Ideal.logistic (scale * (∑ e : Fin 128, x0 (ix4 (0 : Fin 1) (0 : Fin 1) r e) * x1 (ix4 (0 : Fin 1) (0 : Fin 1) t' e))
        + x3 (ix4 (0 : Fin 1) (0 : Fin 1) r t'))
      * x2 (ix4 (0 : Fin 1) (0 : Fin 1) t' d)

/-- The body's accumulator update, at entry (r, d): the old entry plus the point's contribution. (The payload takes
    the blocks in the order the body loads them: q, k, bias, v, then the accumulator.) -/
theorem accUpdate_apply (x0 x1 x2 : Vec Ideal S1x1x1024x128 .f32) (x3 : Vec Ideal S1x1x1024x1024 .f32)
    (acc : Vec Ideal S1024x128 .f32) (r : Fin 1024) (d : Fin 128) :
    k0_pay3 (F := Ideal) x0 x1 x3 x2 acc (ix2 r d) = acc (ix2 r d) + blockTerm x0 x1 x2 x3 r d := by
  unfold k0_pay3
  refine (congrFun (shapeCast_self _ _) _).trans ?_
  show acc (ix2 r d) + FloatOps.matmul (F := Ideal) valueDot none _ _ (constant (F := Ideal) S1024x128 .f32 0x00000000#32) (ix2 r d) = _
  refine congrArg (acc (ix2 r d) + ·) ?_
  refine (weighted_apply _ _ r d).trans ?_
  unfold blockTerm
  refine Finset.sum_congr rfl fun t' _ => ?_
  refine congrArg₂ (· * ·) ?_ (shapeCast_11ab_ab_apply x2 _ t' d)
  show Ideal.logistic (scale * FloatOps.matmul (F := Ideal) scoreDot none _ _ (constant (F := Ideal) S1024x1024 .f32 0x00000000#32) (ix2 r t')
    + shapeCast S1024x1024 x3 _ (ix2 r t')) = _
  refine congrArg Ideal.logistic ?_
  refine congrArg₂ (· + ·) (congrArg (scale * ·) ?_) (shapeCast_11ab_ab_apply x3 _ r t')
  refine (scores_apply _ _ r t').trans (Finset.sum_congr rfl fun e _ => ?_)
  refine congrArg₂ (· * ·) (shapeCast_11ab_ab_apply x0 _ r e) ?_
  exact (transpose_ix2_apply _ _ e t').trans (shapeCast_11ab_ab_apply x1 _ t' e)

/-- The zero block the body stores at the first point of a row of the grid. -/
theorem zeroBlock_apply (j : S1024x128.Idx) : k0_pay2 (F := Ideal) j = 0 := by
  unfold k0_pay2
  refine (congrFun (shapeCast_self _ _) _).trans ?_
  exact Ideal.ofBits_zero_f32

/-- The body's store into the output block: the accumulator entry (r, d) at (0, 0, r, d). -/
theorem outBlock_apply (acc : Vec Ideal S1024x128 .f32) (u v : Fin 1) (r : Fin 1024) (d : Fin 128) :
    k0_pay1 (F := Ideal) acc (ix4 u v r d) = acc (ix2 r d) := by
  unfold k0_pay1
  exact shapeCast_ab_11ab_apply acc _ u v r d

/-- A point's contribution, in the arrays' own coordinates. If the four blocks are the blocks of q, k, v and bias that
    head (b, h), query half `qi` and key half `ki` select — the q block rows 1024·qi …, the k and v blocks rows
    1024·ki …, the bias block those rows and columns — then the contribution to row r, column d is the part of the
    weighted sum over key half `ki`. -/
theorem blockTerm_eq_half (q k v : QKV.Idx → EReal) (bias : BIAS.Idx → EReal) (b : Fin 2) (h : Fin 12) (qi ki : Fin 2)
    (x0 x1 x2 : S1x1x1024x128.Idx → EReal) (x3 : S1x1x1024x1024.Idx → EReal)
    (h0 : ∀ (r : Fin 1024) (e : Fin 128), x0 (ix4 (0 : Fin 1) (0 : Fin 1) r e) = q (ix4 b h (keyRow qi r) e))
    (h1 : ∀ (t' : Fin 1024) (e : Fin 128), x1 (ix4 (0 : Fin 1) (0 : Fin 1) t' e) = k (ix4 b h (keyRow ki t') e))
    (h2 : ∀ (t' : Fin 1024) (d : Fin 128), x2 (ix4 (0 : Fin 1) (0 : Fin 1) t' d) = v (ix4 b h (keyRow ki t') d))
    (h3 : ∀ (r t' : Fin 1024), x3 (ix4 (0 : Fin 1) (0 : Fin 1) r t') = bias (ix4 b h (keyRow qi r) (keyRow ki t')))
    (r : Fin 1024) (d : Fin 128) :
    blockTerm x0 x1 x2 x3 r d = half q k v bias b h (keyRow qi r) d ki := by
  unfold blockTerm half weight
  refine Finset.sum_congr rfl fun t' _ => ?_
  rw [h2 t' d, h3 r t']
  simp only [h0, h1]

/-- Two consecutive points of one query block — the first resetting the accumulator, the second storing it to the
    output block — leave, at (·, ·, r, d) of the output block, zero plus the first point's contribution plus the
    second's. -/
theorem twoPoints_apply (xa0 xa1 xa2 xb0 xb1 xb2 : Vec Ideal S1x1x1024x128 .f32)
    (xa3 xb3 : Vec Ideal S1x1x1024x1024 .f32) (u v : Fin 1) (r : Fin 1024) (d : Fin 128) :
    k0_pay1 (F := Ideal) (k0_pay3 xb0 xb1 xb3 xb2 (k0_pay3 xa0 xa1 xa3 xa2 (k0_pay2 (F := Ideal)))) (ix4 u v r d)
      = (0 + blockTerm xa0 xa1 xa2 xa3 r d) + blockTerm xb0 xb1 xb2 xb3 r d := by
  rw [outBlock_apply, accUpdate_apply, accUpdate_apply, zeroBlock_apply]

end Cert.KernelIdeal.BlockValue

end
-- ==== Proof.KernelIsAttn.lean ====
/-
  The kernel's result array is `AttnSpec.attn` of its four arguments.

  The output block of head (b, h), query half qi is written back once, after the second of the two points that work
  on it (key halves 0 and 1, consecutive in the grid's order). The first of the two resets the accumulator to zero
  and adds the first key half's contribution; the second adds the second half's and stores the accumulator to the
  output block. So the block written back holds, at row r and column d,

      (0 + Σ_{t' < 1024} w(1024·qi + r, t') · v[t', d]) + Σ_{t' < 1024} w(1024·qi + r, 1024 + t') · v[1024 + t', d],

  which is the whole sum over the 2048 key rows regrouped (`attn_eq_halves`). The 48 blocks written back tile the
  result array, so the array after the run is `attn` everywhere.
-/
import proofs.«180535_j7224134992441_1_alg».proof.Proof.Gen.KernelIdeal.Value
import proofs.«180535_j7224134992441_1_alg».proof.Proof.FoundPieces
import proofs.«180535_j7224134992441_1_alg».proof.Proof.GridBlocks
import proofs.«180535_j7224134992441_1_alg».proof.Proof.BlockPayload
import proofs.«180535_j7224134992441_1_alg».proof.Proof.AttnSpec

noncomputable section

namespace Cert.KernelIdeal.KValue

open Cert.KernelIdeal Cert.KernelIdeal.Gen Cert.AttnSpec
open Cert.KernelIdeal.GridBlocks Cert.KernelIdeal.BlockValue Cert.KernelIdeal.FoundPieces
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The point before `t` in the grid's order. -/
def prev (t : Fin cfg0.N) : Fin cfg0.N := ⟨t.val - 1, Nat.lt_of_le_of_lt (Nat.sub_le _ _) t.isLt⟩

/-- The result array: `attn` of the four argument arrays as launched. -/
abbrev result (c : Dev nD) : Buf (Elt Ideal) ((c : Thread nD τ).loc main_v0) :=
  attn (m ((c : Thread nD τ).loc main_arg0)) (m ((c : Thread nD τ).loc main_arg1)) (m ((c : Thread nD τ).loc main_arg2)) (m ((c : Thread nD τ).loc main_arg3))

/-- After a point with key half 0 the accumulator is the update of the zero block by that point's blocks. -/
theorem acc_first (c : Dev nD) (t : Fin cfg0.N) (h0 : t.val % 2 = 0) (h1 : ¬t.val % 2 = 1) :
    (outsAt0 m c t.val t.isLt).2 = k0_pay3 (F := Ideal) (iblk m c 0 t) (iblk m c 1 t) (iblk m c 3 t) (iblk m c 2 t) (k0_pay2 (F := Ideal)) := by
  rw [outsAt0_A m c t h0 h1]
  dsimp only
  exact acc_reset (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole cc0_scratch0) ((hcond0_0 t).mpr h0) (fun h => h1 ((hcond0_1 t).mp h)) (iblk m c 0 t) (iblk m c 1 t) (iblk m c 2 t) (iblk m c 3 t)

/-- After a point with key half 1 the output block is the recast update, by that point's blocks, of the accumulator
    the point before left. -/
theorem out_second (c : Dev nD) (t : Fin cfg0.N) (h0 : ¬t.val % 2 = 0) (h1 : t.val % 2 = 1) :
    (outsAt0 m c t.val t.isLt).1
      = k0_pay1 (F := Ideal) (k0_pay3 (F := Ideal) (iblk m c 0 t) (iblk m c 1 t) (iblk m c 3 t) (iblk m c 2 t) (outsAt0 m c (prev t).val (prev t).isLt).2) := by
  rw [outsAt0_B m c t h0 h1]
  dsimp only
  exact out_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole cc0_scratch0) (fun h => h0 ((hcond0_0 t).mp h)) ((hcond0_1 t).mpr h1) (iblk m c 0 t) (iblk m c 1 t) (iblk m c 2 t) (iblk m c 3 t)
    (outsAt0 m c (t.val - 1) (Nat.lt_of_le_of_lt (Nat.sub_le _ _) t.isLt)).2

/-- So the output block after a point with key half 1 is the two points' updates of the zero block, recast. -/
theorem out_pair (c : Dev nD) (t : Fin cfg0.N) (h1 : t.val % 2 = 1) :
    (outsAt0 m c t.val t.isLt).1
      = k0_pay1 (F := Ideal) (k0_pay3 (F := Ideal) (iblk m c 0 t) (iblk m c 1 t) (iblk m c 3 t) (iblk m c 2 t) (k0_pay3 (F := Ideal) (iblk m c 0 (prev t)) (iblk m c 1 (prev t)) (iblk m c 3 (prev t)) (iblk m c 2 (prev t)) (k0_pay2 (F := Ideal)))) := by
  have h0 : ¬t.val % 2 = 0 := by omega
  have hp0 : (prev t).val % 2 = 0 := by show (t.val - 1) % 2 = 0; omega
  have hp1 : ¬(prev t).val % 2 = 1 := by show ¬(t.val - 1) % 2 = 1; omega
  rw [out_second m c t h0 h1, acc_first m c (prev t) hp0 hp1]

/-- At (·, ·, r, d) the block a point with key half 1 writes back is `attn` at row 1024·qi + r, column d of the
    point's head. -/
theorem out_pair_apply (c : Dev nD) (t : Fin cfg0.N) (h1 : t.val % 2 = 1) (u v : Fin 1) (r : Fin 1024) (d : Fin 128) :
    k0_pay1 (F := Ideal) (k0_pay3 (F := Ideal) (iblk m c 0 t) (iblk m c 1 t) (iblk m c 3 t) (iblk m c 2 t) (k0_pay3 (F := Ideal) (iblk m c 0 (prev t)) (iblk m c 1 (prev t)) (iblk m c 3 (prev t)) (iblk m c 2 (prev t)) (k0_pay2 (F := Ideal)))) (ix4 u v r d)
      = result m c (ix4 (pB t) (pH t) (keyRow (pQ t) r) d) := by
  have h96 := lt96 t
  have eB : pB (prev t) = pB t := Fin.ext (by show (t.val - 1) / 48 = t.val / 48; omega)
  have eH : pH (prev t) = pH t := Fin.ext (by show (t.val - 1) / 4 % 12 = t.val / 4 % 12; omega)
  have eQ : pQ (prev t) = pQ t := Fin.ext (by show (t.val - 1) / 2 % 2 = t.val / 2 % 2; omega)
  have eK0 : pK (prev t) = 0 := Fin.ext (by show (t.val - 1) % 2 = 0; omega)
  have eK1 : pK t = 1 := Fin.ext (by show t.val % 2 = 1; exact h1)
  have first := blockTerm_eq_half (m ((c : Thread nD τ).loc main_arg0)) (m ((c : Thread nD τ).loc main_arg1)) (m ((c : Thread nD τ).loc main_arg2)) (m ((c : Thread nD τ).loc main_arg3)) (pB t) (pH t) (pQ t) 0 (iblk m c 0 (prev t)) (iblk m c 1 (prev t)) (iblk m c 2 (prev t)) (iblk m c 3 (prev t))
    (fun r e => by rw [qBlock_apply m c (prev t) r e, eB, eH, eQ])
    (fun t' e => by rw [kBlock_apply m c (prev t) t' e, eB, eH, eK0])
    (fun t' d => by rw [vBlock_apply m c (prev t) t' d, eB, eH, eK0])
    (fun r t' => by rw [biasBlock_apply m c (prev t) r t', eB, eH, eQ, eK0]) r d
  have second := blockTerm_eq_half (m ((c : Thread nD τ).loc main_arg0)) (m ((c : Thread nD τ).loc main_arg1)) (m ((c : Thread nD τ).loc main_arg2)) (m ((c : Thread nD τ).loc main_arg3)) (pB t) (pH t) (pQ t) 1 (iblk m c 0 t) (iblk m c 1 t) (iblk m c 2 t) (iblk m c 3 t)
    (fun r e => by rw [qBlock_apply m c t r e])
    (fun t' e => by rw [kBlock_apply m c t t' e, eK1])
    (fun t' d => by rw [vBlock_apply m c t t' d, eK1])
    (fun r t' => by rw [biasBlock_apply m c t r t', eK1]) r d
  rw [twoPoints_apply, first, second]
  exact (attn_eq_halves _ _ _ _ (pB t) (pH t) (keyRow (pQ t) r) d).symm

/-- What a flushing point writes back is its block of `result`. -/
theorem flushed_eq (c : Dev nD) (t : Fin cfg0.N) (hf : (cfg0.win 4).flush t = true) :
    (dats m 0 c).flushed 4 t = ((cfg0.win 4).blk t).view.read (Elt Ideal) (result m c) := by
  have h1 : t.val % 2 = 1 := (flush0_4 t).mp hf
  rw [Value.flushed4, out_pair m c t h1]
  funext j
  obtain ⟨u, v, r, d, rfl⟩ : ∃ (u v : Fin 1) (r : Fin 1024) (d : Fin 128), j = ix4 u v r d :=
    ⟨j 0, j 1, j 2, j 3, eq_ix4 j⟩
  rw [View.read_apply, outBlock_emb t u v r d]
  exact out_pair_apply m c t h1 u v r d

/-- An index of the result array is in point `t`'s output block iff each coordinate is in the block's range. -/
theorem mem_blk (t : Fin cfg0.N) (i : S2x12x2048x128.Idx) :
    i ∈ ((cfg0.win 4).blk t).view.set ↔ ∀ a : Fin 4, win0_4.index t a * S1x1x1024x128.size a ≤ (i a).val
      ∧ (i a).val < win0_4.index t a * S1x1x1024x128.size a + S1x1x1024x128.size a := by
  show i ∈ ((View.whole main_v0).slice (win0_4.rect t)).set ↔ _
  rw [View.set_slice_whole, Rect.mem_set_unit]
  exact Iff.rfl

/-- Every index (b, h, s, d) of the result array is in the block written back after point
    4·(12·b + h) + 2·(s / 1024) + 1. -/
theorem cover (i : S2x12x2048x128.Idx) :
    ∃ t : Fin cfg0.N, (cfg0.win 4).flush t = true ∧ i ∈ ((cfg0.win 4).blk t).view.set := by
  have hi0 : (i 0).val < 2 := (i 0).isLt
  have hi1 : (i 1).val < 12 := (i 1).isLt
  have hi2 : (i 2).val < 2048 := (i 2).isLt
  have hi3 : (i 3).val < 128 := (i 3).isLt
  have hN : cfg0.N = 96 := N_0
  obtain ⟨t, ht⟩ : ∃ t : Fin cfg0.N, t.val = 4 * (12 * (i 0).val + (i 1).val) + 2 * ((i 2).val / 1024) + 1 :=
    ⟨⟨4 * (12 * (i 0).val + (i 1).val) + 2 * ((i 2).val / 1024) + 1, by rw [hN]; omega⟩, rfl⟩
  obtain ⟨-, -, -, -, ⟨e0, e1, e2, e3⟩⟩ := idx_facts t
  refine ⟨t, (flush0_4 t).mpr (by omega), ?_⟩
  rw [mem_blk]
  intro a
  match a with
  | ⟨0, _⟩ =>
    show win0_4.index t (0 : Fin 4) * 1 ≤ (i 0).val ∧ (i 0).val < win0_4.index t (0 : Fin 4) * 1 + 1
    omega
  | ⟨1, _⟩ =>
    show win0_4.index t (1 : Fin 4) * 1 ≤ (i 1).val ∧ (i 1).val < win0_4.index t (1 : Fin 4) * 1 + 1
    omega
  | ⟨2, _⟩ =>
    show win0_4.index t (2 : Fin 4) * 1024 ≤ (i 2).val ∧ (i 2).val < win0_4.index t (2 : Fin 4) * 1024 + 1024
    omega
  | ⟨3, _⟩ =>
    show win0_4.index t (3 : Fin 4) * 128 ≤ (i 3).val ∧ (i 3).val < win0_4.index t (3 : Fin 4) * 128 + 128
    omega

/-- The result array after the run is `result`. -/
theorem final (c : Dev nD) : (dats m 0 c).arrAt 4 cfg0.N = result m c :=
  (dats m 0 c).arrAt_eq_of_cover 4 (result m c) (flushed_eq m c) cover

/-- The kernel's run: every weakly fair execution terminates with the result array at `result` and the arguments
    unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.KValue

end
-- ==== Proof.RefIsAttn.lean ====
/-
  The reference computes `AttnSpec.attn`.

  Its program is: scores = q·kᵀ per head (a contraction over the 128 features), α·scores + bias, the logistic
  function spelt out as 1 / (1 + e^(-x)) and multiplied by the literal 1, then the contraction with v over the
  2048 key rows. Read at one index of the result, stage by stage, this is the defining sum of `attn`: the spelt-out
  quotient is the logistic function by definition on the extended reals, and 1 · x = x.
-/
import proofs.«180535_j7224134992441_1_alg».proof.Proof.Gen.ReferenceIdeal.Read
import proofs.«180535_j7224134992441_1_alg».proof.Proof.AttnSpec
import Idealize.ShloMosaic.PureOps.IdealRules

noncomputable section

open scoped BigOperators

namespace Cert.ReferenceIdeal.RefValue

open Cert.ReferenceIdeal Cert.ReferenceIdeal.Read Cert.AttnSpec
open Idealize.ShloMosaic Idealize.ShloMosaic.ValueIdx

/-- The word 0x3F800000 is the real number 1. -/
theorem one_f32 : Ideal.ofBits .f32 0x3F800000#32 = 1 := IdealRules.sign_bit.ideal_onePat .f32

/-- The second contraction pairs weight (b, h, s, t) … -/
theorem lidx12 (b : Fin 2) (h : Fin 12) (s : Fin 2048) (d : Fin 128) (t : Fin 2048) :
    lidx_main_v12 (ix4 b h s d) t = ix4 b h s t :=
  funext fun a => by match a with | ⟨0, _⟩ => rfl | ⟨1, _⟩ => rfl | ⟨2, _⟩ => rfl | ⟨3, _⟩ => rfl

/-- … with v at (b, h, t, d). -/
theorem ridx12 (b : Fin 2) (h : Fin 12) (s : Fin 2048) (d : Fin 128) (t : Fin 2048) :
    ridx_main_v12 (ix4 b h s d) t = ix4 b h t d :=
  funext fun a => by match a with | ⟨0, _⟩ => rfl | ⟨1, _⟩ => rfl | ⟨2, _⟩ => rfl | ⟨3, _⟩ => rfl

/-- The first contraction pairs q at (b, h, s, e) … -/
theorem lidx0 (b : Fin 2) (h : Fin 12) (s t : Fin 2048) (e : Fin 128) :
    lidx_main_v0 (ix4 b h s t) e = ix4 b h s e :=
  funext fun a => by match a with | ⟨0, _⟩ => rfl | ⟨1, _⟩ => rfl | ⟨2, _⟩ => rfl | ⟨3, _⟩ => rfl

/-- … with k at (b, h, t, e). -/
theorem ridx0 (b : Fin 2) (h : Fin 12) (s t : Fin 2048) (e : Fin 128) :
    ridx_main_v0 (ix4 b h s t) e = ix4 b h t e :=
  funext fun a => by match a with | ⟨0, _⟩ => rfl | ⟨1, _⟩ => rfl | ⟨2, _⟩ => rfl | ⟨3, _⟩ => rfl

/-- The reference's weight array at (b, h, s, t) is `weight`. -/
theorem weight_stage (x0 x1 : S2x12x2048x128.Idx → EReal) (x3 : S2x12x2048x2048.Idx → EReal)
    (b : Fin 2) (h : Fin 12) (s t : Fin 2048) :
    val_main_v11 (F := Ideal) x0 x1 x3 (ix4 b h s t) = weight x0 x1 x3 b h s t := by
  rw [val_main_v11_apply, val_main_v10_apply, val_main_cst_2_apply, val_main_v9_apply, val_main_v8_apply,
    val_main_cst_1_apply, val_main_v7_apply, val_main_v6_apply, val_main_cst_0_apply, val_main_v5_apply,
    val_main_v4_apply, val_main_v3_apply, val_main_v2_apply, val_main_v1_apply, val_main_cst_apply,
    val_main_v0_apply]
  simp only [lidx0, ridx0]
  unfold weight Ideal.logistic
  simp only [Ideal.mulf_def, Ideal.addf_def, Ideal.hostDivf_def, Ideal.hostUnary_exp_def, Ideal.hostNegf_def,
    Ideal.negf_def, Ideal.ofBits_def, one_f32, one_mul]

/-- The reference's result is `attn` of its four arguments. -/
theorem ref_eq_attn (x0 x1 x2 : S2x12x2048x128.Idx → EReal) (x3 : S2x12x2048x2048.Idx → EReal) :
    val_main_v12 (F := Ideal) x0 x1 x2 x3 = attn x0 x1 x2 x3 := by
  funext i
  obtain ⟨b, h, s, d, rfl⟩ : ∃ (b : Fin 2) (h : Fin 12) (s : Fin 2048) (d : Fin 128), i = ix4 b h s d :=
    ⟨i 0, i 1, i 2, i 3, eq_ix4 i⟩
  rw [val_main_v12_apply, attn_apply]
  refine Finset.sum_congr rfl fun t _ => ?_
  rw [lidx12, ridx12, weight_stage]

end Cert.ReferenceIdeal.RefValue

end
-- ==== Proof.lean ====
/-
  The kernel computes  out = sigmoid(α · q·kᵀ + bias) · v  per head, and so does the reference.

  Both programs carry the scale α as the same 32-bit word, and on the extended reals the kernel's logistic operation
  and the reference's  1 · (1 / (1 + e^(-x)))  are one function; a change of float format is the identity. What
  differs is the arrangement: the reference contracts over all 2048 key rows at once, the kernel walks a grid of
  96 points — for each head and each half of the query rows, the two halves of the key rows in turn — and
  accumulates the two partial products from zero before writing the block back. Addition of extended reals is
  commutative and associative, so the regrouped sum is the same number whatever the inputs: the precondition is
  not used for the values.

  * `AttnSpec`      — the common function `attn`, and its sum split into the two halves of the key rows;
  * `RefIsAttn`     — the reference's stages, read at an index, are `attn`;
  * `BlockPayload`  — one grid point's accumulator update read at an entry;
  * `FoundPieces`   — what each control case of the body leaves in the accumulator and the output block;
  * `GridBlocks`    — which part of each array a grid point holds;
  * `KernelIsAttn`  — the block written back is a block of `attn`, the blocks tile the result, the run.

  The three frames are the generated frame proofs (the reference's is its run with the result dropped); no
  operation was rewritten by the idealization, so `preserves` is `True`.
-/
import proofs.«180535_j7224134992441_1_alg».proof.Defs
import proofs.«180535_j7224134992441_1_alg».proof.Proof.Gen.Kernel
import proofs.«180535_j7224134992441_1_alg».proof.Proof.Gen.Kernel.Frame
import proofs.«180535_j7224134992441_1_alg».proof.Proof.Gen.KernelIdeal
import proofs.«180535_j7224134992441_1_alg».proof.Proof.Gen.KernelIdeal.Frame
import proofs.«180535_j7224134992441_1_alg».proof.Proof.Gen.KernelIdeal.Value
import proofs.«180535_j7224134992441_1_alg».proof.Proof.Gen.ReferenceIdeal
import proofs.«180535_j7224134992441_1_alg».proof.Proof.Gen.ReferenceIdeal.Run
import proofs.«180535_j7224134992441_1_alg».proof.Proof.Gen.ReferenceIdeal.Read
import proofs.«180535_j7224134992441_1_alg».proof.Proof.Gen.Pre_finite_inputs
import proofs.«180535_j7224134992441_1_alg».proof.Proof.KernelIsAttn
import proofs.«180535_j7224134992441_1_alg».proof.Proof.RefIsAttn
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at `attn` of the (agreeing) arguments. -/
theorem algebraic : Cert.algebraic_KernelIdeal_ReferenceIdeal := by
  intro m ρ m' ρ' _ hagree
  refine ⟨fun c => Cert.KernelIdeal.KValue.result m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v12_eq _ _ _ _).trans ?_
  rw [Cert.ReferenceIdeal.RefValue.ref_eq_attn, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
